-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x4096 .f32) (main_arg5 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x2048x1024 .f32) (main_arg1 : FVec F S8 .f32) (main_arg2 : FVec F S4096x8 .f32) (main_arg3 : FVec F S4096 .f32) (main_arg4 : FVec F S1024x4096 .f32) (main_arg5 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8x2048x1024 : Shape := ⟨3, ![8, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S16384x1024 : Shape := ⟨2, ![16384, 1024]⟩
abbrev S1x8 : Shape := ⟨2, ![1, 8]⟩
abbrev S1x4096 : Shape := ⟨2, ![1, 4096]⟩
abbrev S1x1024 : Shape := ⟨2, ![1, 1024]⟩
abbrev S1024x128 : Shape := ⟨2, ![1024, 128]⟩
abbrev S1024x1024 : Shape := ⟨2, ![1024, 1024]⟩
abbrev S1024x8 : Shape := ⟨2, ![1024, 8]⟩

abbrev nBuf : Space → Nat
  | .hbm => 13
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S16384x1024, .f32⟩
  | .hbm, ⟨7, _⟩ => ⟨S1x8, .f32⟩
  | .hbm, ⟨8, _⟩ => ⟨S1x4096, .f32⟩
  | .hbm, ⟨9, _⟩ => ⟨S1x1024, .f32⟩
  | .hbm, ⟨10, _⟩ => ⟨S1024x4096, .bf16⟩
  | .hbm, ⟨11, _⟩ => ⟨S16384x1024, .f32⟩
  | .hbm, ⟨12, _⟩ => ⟨S8x2048x1024, .f32⟩
  | .local _ .vmem, ⟨0, _⟩ => ⟨S1024x128, .f32⟩
  | .local _ .vmem, ⟨1, _⟩ => ⟨S1024x128, .f32⟩
  | .local _ .vmem, ⟨2, _⟩ => ⟨S1x8, .f32⟩
  | .local _ .vmem, ⟨3, _⟩ => ⟨S4096x8, .f32⟩
  | .local _ .vmem, ⟨4, _⟩ => ⟨S1x4096, .f32⟩
  | .local _ .vmem, ⟨5, _⟩ => ⟨S1024x4096, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x2048x1024_S16384x1024 : S8x2048x1024.ShapeCasts S16384x1024
  shapeCasts_S8_S1x8 : S8.ShapeCasts S1x8
  shapeCasts_S4096_S1x4096 : S4096.ShapeCasts S1x4096
  shapeCasts_S1024_S1x1024 : S1024.ShapeCasts S1x1024
  bitsLt_bf16_f32 : FTy.bits .bf16 < FTy.bits .f32
  inb_S1024x128_S1024x8_0_0 : ∀ a, (![0, 0] : Fin 2 → Nat) a + S1024x8.size a ≤ S1024x128.size a
  h_S1024x8 : 0 < S1024x8.numel
  shapeCasts_S1024x8_S1024x8 : S1024x8.ShapeCasts S1024x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  inb_S4096x8_S4096x8_0_0 : ∀ a, (![0, 0] : Fin 2 → Nat) a + S4096x8.size a ≤ S4096x8.size a
  h_S4096x8 : 0 < S4096x8.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S1024x4096 : S1x4096.Broadcasts S1024x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S16384x1024_S8x2048x1024 : S16384x1024.ShapeCasts S8x2048x1024
  dot_S1024x8_S4096x8_S1024x4096_1_1_0_0_n_n_wf : DotDims.WF S1024x8 S4096x8 S1024x4096 [1] [1] [0] [0] [] []
  dot_S1024x4096_S1024x4096_S1024x1024_1_1_0_0_n_n_wf : DotDims.WF S1024x4096 S1024x4096 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x1024.size a
  hwx0_0 : ∀ i : grid0.Coords, EltTy.bits .f32 = 32 ∨ (Rect.block (s := S16384x1024) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x8.size a ≤ S4096x8.size a
  hwx0_2 : ∀ i : grid0.Coords, EltTy.bits .f32 = 32 ∨ (Rect.block (s := S4096x8) S4096x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S16384x1024.size a
  hwx0_6 : ∀ i : grid0.Coords, EltTy.bits .f32 = 32 ∨ (Rect.block (s := S16384x1024) S1024x1024.size (cc0_transform_6 i) (hinb0_6 i)).WholeWords (EltTy.packing .f32)

variable [Facts₀]

def dot_S1024x8_S4096x8_S1024x4096_1_1_0_0_n_n : DotDims S1024x8 S4096x8 S1024x4096 where
  lhsContracting := [1]
  rhsContracting := [1]
  lhsNonContracting := [0]
  rhsNonContracting := [0]
  lhsBatch := []
  rhsBatch := []
  wf := dot_S1024x8_S4096x8_S1024x4096_1_1_0_0_n_n_wf
def dot_S1024x4096_S1024x4096_S1024x1024_1_1_0_0_n_n : DotDims S1024x4096 S1024x4096 S1024x1024 where
  lhsContracting := [1]
  rhsContracting := [1]
  lhsNonContracting := [0]
  rhsNonContracting := [0]
  lhsBatch := []
  rhsBatch := []
  wf := dot_S1024x4096_S1024x4096_S1024x1024_1_1_0_0_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S8x2048x8 : Shape := ⟨3, ![8, 2048, 8]⟩
abbrev S1x1x8 : Shape := ⟨3, ![1, 1, 8]⟩
abbrev S8x2048x4096 : Shape := ⟨3, ![8, 2048, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S8x2048x8, .f32⟩
  | .hbm, ⟨7, _⟩ => ⟨S1x1x8, .f32⟩
  | .hbm, ⟨8, _⟩ => ⟨S8x2048x8, .f32⟩
  | .hbm, ⟨9, _⟩ => ⟨S8x2048x8, .f32⟩
  | .hbm, ⟨10, _⟩ => ⟨S8x2048x8, .f32⟩
  | .hbm, ⟨11, _⟩ => ⟨S8x2048x4096, .f32⟩
  | .hbm, ⟨12, _⟩ => ⟨S1x1x4096, .f32⟩
  | .hbm, ⟨13, _⟩ => ⟨S8x2048x4096, .f32⟩
  | .hbm, ⟨14, _⟩ => ⟨S8x2048x4096, .f32⟩
  | .hbm, ⟨15, _⟩ => ⟨S_, .f32⟩
  | .hbm, ⟨16, _⟩ => ⟨S8x2048x4096, .f32⟩
  | .hbm, ⟨17, _⟩ => ⟨S8x2048x4096, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  slices_S8x2048x1024_S8x2048x8_0_0_0 : S8x2048x1024.Slices ![0, 0, 0] S8x2048x8
  bcast_S8_S1x1x8_2 : S8.BroadcastsInDim S1x1x8 (![2] : Fin 1 → Fin S1x1x8.rank)
  bcast_S1x1x8_S8x2048x8_0_1_2 : S1x1x8.BroadcastsInDim S8x2048x8 (![0, 1, 2] : Fin 3 → Fin S8x2048x8.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8x2048x4096 : S_.BroadcastsInDim S8x2048x4096 (![] : Fin 0 → Fin S8x2048x4096.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  dot_S8x2048x8_S4096x8_S8x2048x4096_2_1_01_0_n_n_wf : DotDims.WF S8x2048x8 S4096x8 S8x2048x4096 [2] [1] [0, 1] [0] [] []
  dot_S8x2048x4096_S1024x4096_S8x2048x1024_2_1_01_0_n_n_wf : DotDims.WF S8x2048x4096 S1024x4096 S8x2048x1024 [2] [1] [0, 1] [0] [] []

variable [Facts₀]

def dot_S8x2048x8_S4096x8_S8x2048x4096_2_1_01_0_n_n : DotDims S8x2048x8 S4096x8 S8x2048x4096 where
  lhsContracting := [2]
  rhsContracting := [1]
  lhsNonContracting := [0, 1]
  rhsNonContracting := [0]
  lhsBatch := []
  rhsBatch := []
  wf := dot_S8x2048x8_S4096x8_S8x2048x4096_2_1_01_0_n_n_wf
def dot_S8x2048x4096_S1024x4096_S8x2048x1024_2_1_01_0_n_n : DotDims S8x2048x4096 S1024x4096 S8x2048x1024 where
  lhsContracting := [2]
  rhsContracting := [1]
  lhsNonContracting := [0, 1]
  rhsNonContracting := [0]
  lhsBatch := []
  rhsBatch := []
  wf := dot_S8x2048x4096_S1024x4096_S8x2048x1024_2_1_01_0_n_n_wf

class Facts : Prop extends Facts₀ where

variable [Facts]
-- ==== Proof.Spec.lean ====
/-
  The function both programs compute, entry by entry, on the extended reals.

  A token is a row of 1024 numbers of which only the first eight are read. Each of the eight is shifted by its
  angle and passed through the cosine; the eight
  cosines go through a first affine layer into 4096 hidden units, each hidden unit is clipped below at zero, and a
  second affine layer maps the 4096 clipped units to 1024 outputs:

      out(e) = ( Σ_f  max( Σ_j cos(x_j + θ_j) · w1(f, j) + b1(f), 0 ) · w2(e, f) ) + b2(e).

  Both weight matrices are stored output-major, so both sums run over the SECOND axis of their matrix. No law of
  arithmetic is needed to identify the two programs: each spells exactly this expression, summand by summand.
-/
import Idealize.ShloMosaic.PureOps.Ideal
import Idealize.ShloMosaic.Lib.ValueIdx

noncomputable section

namespace Cert.Ffn

open Idealize.ShloMosaic Idealize.ShloMosaic.ValueIdx

/-- One output entry from one token: the token's eight read features `xrow`, the eight angles `θ`, the first layer
    `w1`, `b1`, and the row of the second layer that belongs to this output, `w2row`, with its bias `b2e`. -/
def entry (xrow θ : Fin 8 → EReal) (w1 : Fin 4096 → Fin 8 → EReal) (b1 : Fin 4096 → EReal)
    (w2row : Fin 4096 → EReal) (b2e : EReal) : EReal :=
  (∑ f : Fin 4096, max ((∑ j : Fin 8, Ideal.cos (xrow j + θ j) * w1 f j) + b1 f) 0 * w2row f) + b2e

/-- Two entries with the same data, read entry by entry, are equal. -/
theorem entry_congr {x x' θ θ' : Fin 8 → EReal} {w1 w1' : Fin 4096 → Fin 8 → EReal} {b1 b1' w2 w2' : Fin 4096 → EReal}
    {b2 b2' : EReal} (hx : ∀ j, x j = x' j) (hθ : ∀ j, θ j = θ' j) (hw1 : ∀ f j, w1 f j = w1' f j)
    (hb1 : ∀ f, b1 f = b1' f) (hw2 : ∀ f, w2 f = w2' f) (hb2 : b2 = b2') :
    entry x θ w1 b1 w2 b2 = entry x' θ' w1' b1' w2' b2' := by
  obtain rfl : x = x' := funext hx
  obtain rfl : θ = θ' := funext hθ
  obtain rfl : w1 = w1' := funext fun f => funext (hw1 f)
  obtain rfl : b1 = b1' := funext hb1
  obtain rfl : w2 = w2' := funext hw2
  rw [hb2]

/-- Feature `j` of a token is channel `j` of its 1024 channels. -/
abbrev col (j : Fin 8) : Fin 1024 := ⟨j.val, by have := j.isLt; omega⟩

/-- The whole result: entry `(b, s, e)` is output `e` of token `(b, s)`. -/
def ffn (x : FVec Ideal ⟨3, ![8, 2048, 1024]⟩ .f32) (θ : FVec Ideal ⟨1, ![8]⟩ .f32) (w1 : FVec Ideal ⟨2, ![4096, 8]⟩ .f32)
    (b1 : FVec Ideal ⟨1, ![4096]⟩ .f32) (w2 : FVec Ideal ⟨2, ![1024, 4096]⟩ .f32) (b2 : FVec Ideal ⟨1, ![1024]⟩ .f32) :
    FVec Ideal ⟨3, ![8, 2048, 1024]⟩ .f32 := fun i =>
  entry (fun j => x (ix3 (i 0) (i 1) (col j))) (fun j => θ (ix1 j)) (fun f j => w1 (ix2 f j)) (fun f => b1 (ix1 f))
    (fun f => w2 (ix2 (i 2) f)) (b2 (ix1 (i 2)))

end Cert.Ffn

end
-- ==== Proof.Body.lean ====
/-
  What the kernel body computes for one tile of 1024 tokens, entry by entry.

  The body adds the angles (one row, repeated down the tile) to the tile's first eight columns, takes cosines,
  multiplies by the transposed first weight matrix, adds the first bias row, clips at zero, multiplies by the
  transposed second weight matrix and adds the second bias row. Read at row `p` and column `q` of the tile this is
  `Cert.Ffn.entry` of row `p` of the tile, the angles, the first layer, row `q` of the second weight matrix and entry
  `q` of the second bias. The two products are matrix products into a zero accumulator with both factors
  contracted along their second axis, so each is a finite sum over that axis; the narrowing of the clipped hidden
  units to sixteen bits is the identity on the extended reals.
-/
import proofs.«138156_j65481071405846_2_alg».proof.Proof.Gen.KernelIdeal.Skeleton
import proofs.«138156_j65481071405846_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

theorem proj1_at_l0 (i : S1024x4096.Idx) (c : dot_S1024x8_S4096x8_S1024x4096_1_1_0_0_n_n.contr.Idx) : (dot_S1024x8_S4096x8_S1024x4096_1_1_0_0_n_n.lhsIdx i c 0).val = (i 0).val := by
  unfold DotDims.lhsIdx
  rw [dif_neg (show ¬(0 : Fin S1024x8.rank) ∈ dot_S1024x8_S4096x8_S1024x4096_1_1_0_0_n_n.lhsBatch by decide), dif_pos (show (0 : Fin S1024x8.rank) ∈ dot_S1024x8_S4096x8_S1024x4096_1_1_0_0_n_n.lhsNonContracting by decide)]
  rfl
theorem proj1_at_r0 (i : S1024x4096.Idx) (c : dot_S1024x8_S4096x8_S1024x4096_1_1_0_0_n_n.contr.Idx) : (dot_S1024x8_S4096x8_S1024x4096_1_1_0_0_n_n.rhsIdx i c 0).val = (i 1).val := by
  unfold DotDims.rhsIdx
  rw [dif_neg (show ¬(0 : Fin S4096x8.rank) ∈ dot_S1024x8_S4096x8_S1024x4096_1_1_0_0_n_n.rhsBatch by decide), dif_pos (show (0 : Fin S4096x8.rank) ∈ dot_S1024x8_S4096x8_S1024x4096_1_1_0_0_n_n.rhsNonContracting by decide)]
  rfl

/-- The first product at (p, f): the sum over the eight features of the tile's row `p` against row `f` of the first weight matrix. -/
theorem proj1_at (l : FVec Ideal S1024x8 .f32) (r : FVec Ideal S4096x8 .f32) (p : Fin 1024) (f : Fin 4096) :
    matmul dot_S1024x8_S4096x8_S1024x4096_1_1_0_0_n_n (some .fp32) l r (constant (F := Ideal) S1024x4096 .f32 0x00000000#32) (ix2 p f)
      = ∑ k : Fin 8, l (ix2 p k) * r (ix2 f k) := by
  simp only [matmul]
  rw [Ideal.matmul_constant_zero_apply, ← Equiv.sum_comp (contrEquiv1 dot_S1024x8_S4096x8_S1024x4096_1_1_0_0_n_n 8 rfl rfl).symm]
  refine Finset.sum_congr rfl fun k _ => ?_
  have hk := contrEquiv1_symm_val dot_S1024x8_S4096x8_S1024x4096_1_1_0_0_n_n 8 rfl rfl k
  have el : dot_S1024x8_S4096x8_S1024x4096_1_1_0_0_n_n.lhsIdx (ix2 p f) ((contrEquiv1 dot_S1024x8_S4096x8_S1024x4096_1_1_0_0_n_n 8 rfl rfl).symm k) = ix2 p k := funext fun a => Fin.ext (by
    match a with
    | ⟨0, _⟩ => exact proj1_at_l0 _ _
    | ⟨1, _⟩ => exact (dot_S1024x8_S4096x8_S1024x4096_1_1_0_0_n_n.lhsIdx_val_of_single rfl _ _).trans hk)
  have er : dot_S1024x8_S4096x8_S1024x4096_1_1_0_0_n_n.rhsIdx (ix2 p f) ((contrEquiv1 dot_S1024x8_S4096x8_S1024x4096_1_1_0_0_n_n 8 rfl rfl).symm k) = ix2 f k := funext fun a => Fin.ext (by
    match a with
    | ⟨0, _⟩ => exact proj1_at_r0 _ _
    | ⟨1, _⟩ => exact (dot_S1024x8_S4096x8_S1024x4096_1_1_0_0_n_n.rhsIdx_val_of_single rfl _ _).trans hk)
  rw [el, er]

theorem proj2_at_l0 (i : S1024x1024.Idx) (c : dot_S1024x4096_S1024x4096_S1024x1024_1_1_0_0_n_n.contr.Idx) : (dot_S1024x4096_S1024x4096_S1024x1024_1_1_0_0_n_n.lhsIdx i c 0).val = (i 0).val := by
  unfold DotDims.lhsIdx
  rw [dif_neg (show ¬(0 : Fin S1024x4096.rank) ∈ dot_S1024x4096_S1024x4096_S1024x1024_1_1_0_0_n_n.lhsBatch by decide), dif_pos (show (0 : Fin S1024x4096.rank) ∈ dot_S1024x4096_S1024x4096_S1024x1024_1_1_0_0_n_n.lhsNonContracting by decide)]
  rfl
theorem proj2_at_r0 (i : S1024x1024.Idx) (c : dot_S1024x4096_S1024x4096_S1024x1024_1_1_0_0_n_n.contr.Idx) : (dot_S1024x4096_S1024x4096_S1024x1024_1_1_0_0_n_n.rhsIdx i c 0).val = (i 1).val := by
  unfold DotDims.rhsIdx
  rw [dif_neg (show ¬(0 : Fin S1024x4096.rank) ∈ dot_S1024x4096_S1024x4096_S1024x1024_1_1_0_0_n_n.rhsBatch by decide), dif_pos (show (0 : Fin S1024x4096.rank) ∈ dot_S1024x4096_S1024x4096_S1024x1024_1_1_0_0_n_n.rhsNonContracting by decide)]
  rfl

/-- The second product at (p, q): the sum over the 4096 hidden units of the tile's row `p` against row `q` of the second weight matrix. -/
theorem proj2_at (l : FVec Ideal S1024x4096 .bf16) (r : FVec Ideal S1024x4096 .bf16) (p : Fin 1024) (f : Fin 1024) :
    matmul dot_S1024x4096_S1024x4096_S1024x1024_1_1_0_0_n_n none l r (constant (F := Ideal) S1024x1024 .f32 0x00000000#32) (ix2 p f)
      = ∑ k : Fin 4096, l (ix2 p k) * r (ix2 f k) := by
  simp only [matmul]
  rw [Ideal.matmul_constant_zero_apply, ← Equiv.sum_comp (contrEquiv1 dot_S1024x4096_S1024x4096_S1024x1024_1_1_0_0_n_n 4096 rfl rfl).symm]
  refine Finset.sum_congr rfl fun k _ => ?_
  have hk := contrEquiv1_symm_val dot_S1024x4096_S1024x4096_S1024x1024_1_1_0_0_n_n 4096 rfl rfl k
  have el : dot_S1024x4096_S1024x4096_S1024x1024_1_1_0_0_n_n.lhsIdx (ix2 p f) ((contrEquiv1 dot_S1024x4096_S1024x4096_S1024x1024_1_1_0_0_n_n 4096 rfl rfl).symm k) = ix2 p k := funext fun a => Fin.ext (by
    match a with
    | ⟨0, _⟩ => exact proj2_at_l0 _ _
    | ⟨1, _⟩ => exact (dot_S1024x4096_S1024x4096_S1024x1024_1_1_0_0_n_n.lhsIdx_val_of_single rfl _ _).trans hk)
  have er : dot_S1024x4096_S1024x4096_S1024x1024_1_1_0_0_n_n.rhsIdx (ix2 p f) ((contrEquiv1 dot_S1024x4096_S1024x4096_S1024x1024_1_1_0_0_n_n 4096 rfl rfl).symm k) = ix2 f k := funext fun a => Fin.ext (by
    match a with
    | ⟨0, _⟩ => exact proj2_at_r0 _ _
    | ⟨1, _⟩ => exact (dot_S1024x4096_S1024x4096_S1024x1024_1_1_0_0_n_n.rhsIdx_val_of_single rfl _ _).trans hk)
  rw [el, er]

/-- The cosine of a vector, entry by entry, is the cosine on the extended reals. -/
theorem cos_at {s : Shape} (x : FVec Ideal s .f32) (i : s.Idx) : cos x i = Ideal.cos (x i) := rfl

/-- The body's stored value at row `p`, column `q` of the tile. -/
theorem pay_at (v0 : Vec Ideal S1024x8 .f32) (v2 : Vec Ideal S1x8 .f32) (v7 : Vec Ideal S4096x8 .f32) (v9 : Vec Ideal S1x4096 .f32)
    (v16 : Vec Ideal S1024x4096 .bf16) (v19 : Vec Ideal S1x1024 .f32) (p q : Fin 1024) :
    k0_pay1 v0 v2 v7 v9 v16 v19 (ix2 p q)
      = Cert.Ffn.entry (fun j => v0 (ix2 p j)) (fun j => v2 (ix2 (0 : Fin 1) j)) (fun f j => v7 (ix2 f j))
          (fun f => v9 (ix2 (0 : Fin 1) f)) (fun f => v16 (ix2 q f)) (v19 (ix2 (0 : Fin 1) q)) := by
  unfold k0_pay1 Cert.Ffn.entry
  dsimp only
  simp only [shapeCast_self]
  rw [addf_apply, proj2_at, broadcastTo_1b_ab_apply]
  refine congrArg (· + v19 (ix2 (0 : Fin 1) q)) (Finset.sum_congr rfl fun f _ => ?_)
  rw [truncf_apply, maximumf_apply, addf_apply, proj1_at, broadcastTo_1b_ab_apply, broadcast_apply]
  show max _ (Ideal.ofBits .f32 0x00000000#32) * _ = _
  rw [Ideal.ofBits_zero_f32]
  refine congrArg (fun z => max (z + v9 (ix2 (0 : Fin 1) f)) 0 * v16 (ix2 q f)) (Finset.sum_congr rfl fun j _ => ?_)
  rw [cos_at, addf_apply, broadcastTo_1b_ab_apply]

/-- The same at any index `y` of the tile, by its two coordinates. -/
theorem pay_idx (v0 : Vec Ideal S1024x8 .f32) (v2 : Vec Ideal S1x8 .f32) (v7 : Vec Ideal S4096x8 .f32) (v9 : Vec Ideal S1x4096 .f32)
    (v16 : Vec Ideal S1024x4096 .bf16) (v19 : Vec Ideal S1x1024 .f32) (y : S1024x1024.Idx) :
    k0_pay1 v0 v2 v7 v9 v16 v19 y
      = Cert.Ffn.entry (fun j => v0 (ix2 (y 0) j)) (fun j => v2 (ix2 (0 : Fin 1) j)) (fun f j => v7 (ix2 f j))
          (fun f => v9 (ix2 (0 : Fin 1) f)) (fun f => v16 (ix2 (y 1) f)) (v19 (ix2 (0 : Fin 1) (y 1))) := by
  obtain ⟨p, q, rfl⟩ : ∃ (p : Fin 1024) (q : Fin 1024), y = ix2 p q := ⟨y 0, y 1, eq_ix2 y⟩
  exact pay_at v0 v2 v7 v9 v16 v19 p q

end Cert.KernelIdeal.Body

end
-- ==== Proof.Tile.lean ====
/-
  One grid point's tile.

  The region's operands, as it finds them: the tokens laid out as a 16384 × 1024 matrix (a reshape of the
  argument), the angles and the two biases as single rows (reshapes), the first weight matrix as launched and
  the second narrowed to sixteen bits (the identity on the extended reals). The grid has sixteen points; point
  `t` reads rows 1024·t … 1024·t + 1023 of the token matrix (the first 128 columns of them) and all of every other
  operand, and writes rows 1024·t … 1024·t + 1023 of the result. So what point `t` writes back is the restriction to
  those rows of ONE function on the whole 16384 × 1024 result, `rowsOut`: row `r`, column `e` is
  `Cert.Ffn.entry` of token row `r` and output `e`.
-/
import proofs.«138156_j65481071405846_2_alg».proof.Proof.Gen.KernelIdeal.Frame
import proofs.«138156_j65481071405846_2_alg».proof.Proof.Body
import Idealize.ShloMosaic.Lib.Pipeline.Value
import Idealize.ShloMosaic.Lib.StableHlo.Run
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.Tile

open Cert.KernelIdeal Cert.KernelIdeal.Gen Idealize.ShloMosaic.ValueIdx Idealize.ShloMosaic.StableHlo

variable (m : (ℓ : Loc nD τ sig) → Buf (Elt Ideal) ℓ)

/-! ## The operands as the region finds them -/

/-- The token matrix is the argument reshaped. -/
theorem tokens_eq (c : Dev nD) : (V m c main_v0 : S16384x1024.Idx → EReal)
    = shapeCast S16384x1024 (m ((c : Thread nD τ).loc main_arg0)) shapeCasts_S8x2048x1024_S16384x1024 := by
  show StableHlo.after hostOps0 (fun b => m (c, b)) (Proc.devRef .tc main_v0) = _
  after_results
  rfl
/-- The angles as a row. -/
theorem angles_eq (c : Dev nD) : (V m c main_v1 : S1x8.Idx → EReal)
    = shapeCast S1x8 (m ((c : Thread nD τ).loc main_arg1)) shapeCasts_S8_S1x8 := by
  show StableHlo.after hostOps0 (fun b => m (c, b)) (Proc.devRef .tc main_v1) = _
  after_results
  rfl
/-- The first bias as a row. -/
theorem bias1_eq (c : Dev nD) : (V m c main_v2 : S1x4096.Idx → EReal)
    = shapeCast S1x4096 (m ((c : Thread nD τ).loc main_arg3)) shapeCasts_S4096_S1x4096 := by
  show StableHlo.after hostOps0 (fun b => m (c, b)) (Proc.devRef .tc main_v2) = _
  after_results
  rfl
/-- The second bias as a row. -/
theorem bias2_eq (c : Dev nD) : (V m c main_v3 : S1x1024.Idx → EReal)
    = shapeCast S1x1024 (m ((c : Thread nD τ).loc main_arg5)) shapeCasts_S1024_S1x1024 := by
  show StableHlo.after hostOps0 (fun b => m (c, b)) (Proc.devRef .tc main_v3) = _
  after_results
  rfl
/-- The second weight matrix narrowed: the same extended reals. -/
theorem weights2_eq (c : Dev nD) : (V m c main_v4 : S1024x4096.Idx → EReal)
    = (m ((c : Thread nD τ).loc main_arg4) : S1024x4096.Idx → EReal) := by
  show StableHlo.after hostOps0 (fun b => m (c, b)) (Proc.devRef .tc main_v4) = _
  after_results
  rfl

/-! ## The index maps over the sixteen points -/

/-- Tokens and result move one block of rows per point; every other operand stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block as a read of its array -/

/-- The token block at point `t`: row `y 0` of the block is row 1024·t + `y 0` of the token matrix. -/
theorem blk0_at (c : Dev nD) (t : Fin cfg0.N) (y : S1024x128.Idx) (k : S16384x1024.Idx)
    (hk0 : (k 0).val = 1024 * t.val + (y 0).val) (hk1 : (k 1).val = (y 1).val) :
    (iblk m c 0 t : Vec Ideal S1024x128 .f32) y = (V m c main_v0 : S16384x1024.Idx → EReal) k := by
  obtain ⟨e00, e01, -⟩ := idx_facts t
  unfold iblk
  rw [View.read_apply]
  show V m c main_v0 _ = V m c main_v0 _
  congr 1
  funext a
  apply Fin.ext
  match a with
  | ⟨0, _⟩ => show win0_0.index t (0 : Fin 2) * 1024 + 1 * (y 0).val = (k 0).val; rw [e00, hk0]; omega
  | ⟨1, _⟩ => show win0_0.index t (1 : Fin 2) * 128 + 1 * (y 1).val = (k 1).val; rw [e01, hk1]; omega

/-- Window 1 holds its whole array at every point: its block index is (0, 0). -/
theorem blk1_at (c : Dev nD) (t : Fin cfg0.N) (y : S1x8.Idx) :
    (iblk m c 1 t : Vec Ideal S1x8 .f32) y = (V m c main_v1 : S1x8.Idx → EReal) y := by
  obtain ⟨-, -, e10, e11, e20, e21, e30, e31, e40, e41, e50, e51, -, -⟩ := idx_facts t
  unfold iblk
  rw [View.read_apply]
  show V m c main_v1 _ = V m c main_v1 _
  congr 1
  funext a
  apply Fin.ext
  match a with
  | ⟨0, _⟩ => show win0_1.index t (0 : Fin 2) * 1 + 1 * (y 0).val = (y 0).val; rw [e10]; omega
  | ⟨1, _⟩ => show win0_1.index t (1 : Fin 2) * 8 + 1 * (y 1).val = (y 1).val; rw [e11]; omega

/-- Window 2 holds its whole array at every point: its block index is (0, 0). -/
theorem blk2_at (c : Dev nD) (t : Fin cfg0.N) (y : S4096x8.Idx) :
    (iblk m c 2 t : Vec Ideal S4096x8 .f32) y = (V m c main_arg2 : S4096x8.Idx → EReal) y := by
  obtain ⟨-, -, e10, e11, e20, e21, e30, e31, e40, e41, e50, e51, -, -⟩ := idx_facts t
  unfold iblk
  rw [View.read_apply]
  show V m c main_arg2 _ = V m c main_arg2 _
  congr 1
  funext a
  apply Fin.ext
  match a with
  | ⟨0, _⟩ => show win0_2.index t (0 : Fin 2) * 4096 + 1 * (y 0).val = (y 0).val; rw [e20]; omega
  | ⟨1, _⟩ => show win0_2.index t (1 : Fin 2) * 8 + 1 * (y 1).val = (y 1).val; rw [e21]; omega

/-- Window 3 holds its whole array at every point: its block index is (0, 0). -/
theorem blk3_at (c : Dev nD) (t : Fin cfg0.N) (y : S1x4096.Idx) :
    (iblk m c 3 t : Vec Ideal S1x4096 .f32) y = (V m c main_v2 : S1x4096.Idx → EReal) y := by
  obtain ⟨-, -, e10, e11, e20, e21, e30, e31, e40, e41, e50, e51, -, -⟩ := idx_facts t
  unfold iblk
  rw [View.read_apply]
  show V m c main_v2 _ = V m c main_v2 _
  congr 1
  funext a
  apply Fin.ext
  match a with
  | ⟨0, _⟩ => show win0_3.index t (0 : Fin 2) * 1 + 1 * (y 0).val = (y 0).val; rw [e30]; omega
  | ⟨1, _⟩ => show win0_3.index t (1 : Fin 2) * 4096 + 1 * (y 1).val = (y 1).val; rw [e31]; omega

/-- Window 4 holds its whole array at every point: its block index is (0, 0). -/
theorem blk4_at (c : Dev nD) (t : Fin cfg0.N) (y : S1024x4096.Idx) :
    (iblk m c 4 t : Vec Ideal S1024x4096 .bf16) y = (V m c main_v4 : S1024x4096.Idx → EReal) y := by
  obtain ⟨-, -, e10, e11, e20, e21, e30, e31, e40, e41, e50, e51, -, -⟩ := idx_facts t
  unfold iblk
  rw [View.read_apply]
  show V m c main_v4 _ = V m c main_v4 _
  congr 1
  funext a
  apply Fin.ext
  match a with
  | ⟨0, _⟩ => show win0_4.index t (0 : Fin 2) * 1024 + 1 * (y 0).val = (y 0).val; rw [e40]; omega
  | ⟨1, _⟩ => show win0_4.index t (1 : Fin 2) * 4096 + 1 * (y 1).val = (y 1).val; rw [e41]; omega

/-- Window 5 holds its whole array at every point: its block index is (0, 0). -/
theorem blk5_at (c : Dev nD) (t : Fin cfg0.N) (y : S1x1024.Idx) :
    (iblk m c 5 t : Vec Ideal S1x1024 .f32) y = (V m c main_v3 : S1x1024.Idx → EReal) y := by
  obtain ⟨-, -, e10, e11, e20, e21, e30, e31, e40, e41, e50, e51, -, -⟩ := idx_facts t
  unfold iblk
  rw [View.read_apply]
  show V m c main_v3 _ = V m c main_v3 _
  congr 1
  funext a
  apply Fin.ext
  match a with
  | ⟨0, _⟩ => show win0_5.index t (0 : Fin 2) * 1 + 1 * (y 0).val = (y 0).val; rw [e50]; omega
  | ⟨1, _⟩ => show win0_5.index t (1 : Fin 2) * 1024 + 1 * (y 1).val = (y 1).val; rw [e51]; omega

/-! ## What a point writes back -/

/-- The 16384 × 1024 result as ONE function of the operands the region finds: row `r`, column `e` is the
    specification's entry of token row `r` (its first eight columns) and output `e`. -/
def rowsOut (c : Dev nD) : S16384x1024.Idx → EReal := fun i =>
  Cert.Ffn.entry (fun j => (V m c main_v0 : S16384x1024.Idx → EReal) (ix2 (i 0) (Cert.Ffn.col j)))
    (fun j => (V m c main_v1 : S1x8.Idx → EReal) (ix2 (0 : Fin 1) j))
    (fun f j => (V m c main_arg2 : S4096x8.Idx → EReal) (ix2 f j))
    (fun f => (V m c main_v2 : S1x4096.Idx → EReal) (ix2 (0 : Fin 1) f))
    (fun f => (V m c main_v4 : S1024x4096.Idx → EReal) (ix2 (i 1) f))
    ((V m c main_v3 : S1x1024.Idx → EReal) (ix2 (0 : Fin 1) (i 1)))

theorem hz : (![0, 0] : Fin 2 → Nat) = fun _ => 0 := funext fun a => by fin_cases a <;> rfl

/-- Point `t` writes back rows 1024·t … 1024·t + 1023 of `rowsOut`: the body's one store covers the tile, its value at
    (p, q) is the entry of the tile's row `p` and output `q`, and the tile's row `p` is row 1024·t + p of the tokens. -/
theorem flushed_eq (c : Dev nD) (t : Fin cfg0.N) :
    (dats m 0 c).flushed 6 t = ((cfg0.win 6).blk t).view.read (Elt Ideal) (rowsOut m c) := by
  show (cfg0.win 6).cut (grid0.coords t) ((dats m 0 c).after 6 t) = _
  rw [after0_6]
  unfold out0_6
  rw [View.canon_unit_zero hz]
  simp only [View.ld_unit_zero (S := S1x8) hz, View.ld_unit_zero (S := S4096x8) hz, View.ld_unit_zero (S := S1x4096) hz,
    View.ld_unit_zero (S := S1024x4096) hz, View.ld_unit_zero (S := S1x1024) hz]
  obtain ⟨-, -, -, -, -, -, -, -, -, -, -, -, e60, e61⟩ := idx_facts t
  funext y
  refine (Body.pay_idx _ _ _ _ _ _ y).trans ?_
  show _ = rowsOut m c (((cfg0.win 6).blk t).view.emb y)
  unfold rowsOut
  refine Cert.Ffn.entry_congr (fun j => ?_) (fun j => ?_) (fun f j => ?_) (fun f => ?_) (fun f => ?_) ?_
  · show iblk m c 0 t (r0_0.idx (ix2 (y 0) j)) = _
    refine blk0_at m c t _ _ ?_ ?_
    · show win0_6.index t (0 : Fin 2) * 1024 + 1 * (y 0).val = 1024 * t.val + (0 + 1 * (y 0).val)
      rw [e60]; omega
    · show j.val = 0 + 1 * j.val
      omega
  · exact blk1_at m c t _
  · exact blk2_at m c t _
  · exact blk3_at m c t _
  · refine (blk4_at m c t _).trans (congrArg (V m c main_v4 : S1024x4096.Idx → EReal) (funext fun a => Fin.ext ?_))
    match a with
    | ⟨0, _⟩ => show (y 1).val = win0_6.index t (1 : Fin 2) * 1024 + 1 * (y 1).val; rw [e61]; omega
    | ⟨1, _⟩ => rfl
  · refine (blk5_at m c t _).trans (congrArg (V m c main_v3 : S1x1024.Idx → EReal) (funext fun a => Fin.ext ?_))
    match a with
    | ⟨0, _⟩ => rfl
    | ⟨1, _⟩ => show (y 1).val = win0_6.index t (1 : Fin 2) * 1024 + 1 * (y 1).val; rw [e61]; omega

end Cert.KernelIdeal.Tile

end
-- ==== Proof.LibFlattenRows.lean ====
/-
  Flattening the two leading axes of a rank-3 array, and un-flattening them.

  Row-major order does not change when the axes `a` and `b` of an `[a, b, c]` array are merged into one axis of
  extent `n = a·b`: entry `(x, y, z)` of the rank-3 array and entry `(x·b + y, z)` of the matrix sit at the same
  position `(x·b + y)·c + z`. So a reshape in either direction reads the operand at the matching index, for any
  element type and any extents.
-/
import Idealize.ShloMosaic.Lib.Pipeline.Value
import Idealize.ShloMosaic.Lib.ValueIdx

namespace Cert.Lib

open Idealize.ShloMosaic Idealize.ShloMosaic.ValueIdx

variable {α : Type}

/-- An `[a, b, c]` array reshaped to `[n, c]` reads, at row `r = x·b + y` and column `z`, the operand at `(x, y, z)`. -/
theorem shapeCast_abc_nc_apply {a b c n : ℕ} (X : (⟨3, ![a, b, c]⟩ : Shape).Idx → α)
    (h : (⟨3, ![a, b, c]⟩ : Shape).ShapeCasts ⟨2, ![n, c]⟩) (x : Fin a) (y : Fin b) (z : Fin c) (r : Fin n)
    (hr : r.val = x.val * b + y.val) : shapeCast ⟨2, ![n, c]⟩ X h (ix2 r z) = X (ix3 x y z) :=
  shapeCast_apply X h _ _ (by
    rw [Shape.rowMajor_val_three, Shape.rowMajor_val_two]
    show (x.val * b + y.val) * c + z.val = r.val * c + z.val
    rw [hr])

/-- An `[n, c]` matrix reshaped to `[a, b, c]` reads, at `(x, y, z)`, the operand at row `r = x·b + y`, column `z`. -/
theorem shapeCast_nc_abc_apply {a b c n : ℕ} (Y : (⟨2, ![n, c]⟩ : Shape).Idx → α)
    (h : (⟨2, ![n, c]⟩ : Shape).ShapeCasts ⟨3, ![a, b, c]⟩) (x : Fin a) (y : Fin b) (z : Fin c) (r : Fin n)
    (hr : r.val = x.val * b + y.val) : shapeCast ⟨3, ![a, b, c]⟩ Y h (ix3 x y z) = Y (ix2 r z) :=
  shapeCast_apply Y h _ _ (by
    rw [Shape.rowMajor_val_two, Shape.rowMajor_val_three]
    show r.val * c + z.val = (x.val * b + y.val) * c + z.val
    rw [hr])

end Cert.Lib
-- ==== Proof.Whole.lean ====
/-
  The whole result of the kernel program.

  The sixteen tiles of rows cover the 16384 × 1024 result (row `r` lies in tile `r / 1024`), so after the region the
  result matrix is `Tile.rowsOut` everywhere. The program then reshapes it to 8 × 2048 × 1024: entry (b, s, e) is row
  2048·b + s, column `e`. Reading the region's operands back through the reshapes that made them — token row
  2048·b + s is token (b, s) of the argument, the angle and bias rows are the argument vectors — the program's result is
  `Cert.Ffn.ffn` of its six arguments, and the arguments end as they were launched.
-/
import proofs.«138156_j65481071405846_2_alg».proof.Proof.Tile
import proofs.«138156_j65481071405846_2_alg».proof.Proof.LibFlattenRows

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx Idealize.ShloMosaic.StableHlo

variable (m : (ℓ : Loc nD τ sig) → Buf (Elt Ideal) ℓ) (ρ : Dev nD → PrngReg)

/-! ## The tiles cover the result matrix -/

/-- An index of the result matrix lies in point `t`'s tile iff each coordinate lies in the tile's range on its axis. -/
theorem mem_tile (t : Fin cfg0.N) (i : S16384x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v5).slice (win0_6.rect t)).set ↔ _
  rw [View.set_slice_whole, Rect.mem_set_unit]
  exact Iff.rfl

/-- Row `r` is written back by point `r / 1024`. -/
theorem cover (i : S16384x1024.Idx) :
    ∃ t : Fin cfg0.N, (cfg0.win 6).flush t = true ∧ i ∈ ((cfg0.win 6).blk t).view.set := by
  have h0 : (i 0).val < 16384 := (i 0).isLt
  have h1 : (i 1).val < 1024 := (i 1).isLt
  have hN : cfg0.N = 16 := N_0
  obtain ⟨t, ht⟩ : ∃ t : Fin cfg0.N, t.val = (i 0).val / 1024 := ⟨⟨(i 0).val / 1024, by rw [hN]; omega⟩, rfl⟩
  obtain ⟨-, -, -, -, -, -, -, -, -, -, -, -, e60, e61⟩ := Tile.idx_facts t
  refine ⟨t, flush0_6 t, ?_⟩
  rw [mem_tile]
  intro a
  match a with
  | ⟨0, _⟩ =>
    show win0_6.index t (0 : Fin 2) * 1024 ≤ (i 0).val ∧ (i 0).val < win0_6.index t (0 : Fin 2) * 1024 + 1024
    rw [e60, ht]; omega
  | ⟨1, _⟩ =>
    show win0_6.index t (1 : Fin 2) * 1024 ≤ (i 1).val ∧ (i 1).val < win0_6.index t (1 : Fin 2) * 1024 + 1024
    rw [e61]; omega

/-- After the region the result matrix is `rowsOut`. -/
theorem region_eq (c : Dev nD) : (dats m 0 c).arrAt 6 cfg0.N = Tile.rowsOut m c :=
  (dats m 0 c).arrAt_eq_of_cover 6 (Tile.rowsOut m c) (fun t _ => Tile.flushed_eq m c t) cover

/-! ## The reshape after the region, and the operands read back -/

/-- The program's result buffer: the result matrix reshaped to batch × position × output. -/
theorem tail_eq (c : Dev nD) :
    (Pipeline.afterTail₀ cfgs (dats m) 0 (V0 m) [hostOps1] c main_v6 : S8x2048x1024.Idx → EReal)
      = shapeCast S8x2048x1024 (Tile.rowsOut m c) shapeCasts_S16384x1024_S8x2048x1024 := by
  unfold Pipeline.afterTail₀
  show StableHlo.after hostOps1 _ (Proc.devRef .tc main_v6) = _
  after_results
  exact congrArg (fun A : S16384x1024.Idx → EReal => shapeCast S8x2048x1024 A shapeCasts_S16384x1024_S8x2048x1024)
    ((Pipeline.withArrays_arr spec0 launch0.win.arr_inj c _ _ 6).trans (region_eq m c))

/-- Entry (b, s, e) of the reshaped result is the specification's entry there, of the ARGUMENTS. -/
theorem result_at (c : Dev nD) (i : S8x2048x1024.Idx) :
    shapeCast S8x2048x1024 (Tile.rowsOut m c) shapeCasts_S16384x1024_S8x2048x1024 i
      = Cert.Ffn.ffn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) i := by
  obtain ⟨b, s, e, rfl⟩ : ∃ (b : Fin 8) (s : Fin 2048) (e : Fin 1024), i = ix3 b s e := ⟨i 0, i 1, i 2, eq_ix3 i⟩
  have hb : b.val < 8 := b.isLt
  have hs : s.val < 2048 := s.isLt
  obtain ⟨r, hr⟩ : ∃ r : Fin 16384, r.val = b.val * 2048 + s.val := ⟨⟨b.val * 2048 + s.val, by omega⟩, rfl⟩
  refine (Cert.Lib.shapeCast_nc_abc_apply (Tile.rowsOut m c) shapeCasts_S16384x1024_S8x2048x1024 b s e r hr).trans ?_
  unfold Tile.rowsOut Cert.Ffn.ffn
  refine Cert.Ffn.entry_congr (fun j => ?_) (fun j => ?_) (fun f j => ?_) (fun f => ?_) (fun f => ?_) ?_
  · show (V m c main_v0 : S16384x1024.Idx → EReal) (ix2 r (Cert.Ffn.col j))
      = (m ((c : Thread nD τ).loc main_arg0) : S8x2048x1024.Idx → EReal) (ix3 b s (Cert.Ffn.col j))
    rw [Tile.tokens_eq]
    exact Cert.Lib.shapeCast_abc_nc_apply _ shapeCasts_S8x2048x1024_S16384x1024 b s (Cert.Ffn.col j) r hr
  · show (V m c main_v1 : S1x8.Idx → EReal) (ix2 (0 : Fin 1) j) = (m ((c : Thread nD τ).loc main_arg1) : S8.Idx → EReal) (ix1 j)
    rw [Tile.angles_eq]
    exact shapeCast_a_1a_apply _ shapeCasts_S8_S1x8 _ _
  · show (V m c main_arg2 : S4096x8.Idx → EReal) (ix2 f j) = (m ((c : Thread nD τ).loc main_arg2) : S4096x8.Idx → EReal) (ix2 f j)
    rw [V_main_arg2]
  · show (V m c main_v2 : S1x4096.Idx → EReal) (ix2 (0 : Fin 1) f) = (m ((c : Thread nD τ).loc main_arg3) : S4096.Idx → EReal) (ix1 f)
    rw [Tile.bias1_eq]
    exact shapeCast_a_1a_apply _ shapeCasts_S4096_S1x4096 _ _
  · show (V m c main_v4 : S1024x4096.Idx → EReal) (ix2 e f) = (m ((c : Thread nD τ).loc main_arg4) : S1024x4096.Idx → EReal) (ix2 e f)
    rw [Tile.weights2_eq]
  · show (V m c main_v3 : S1x1024.Idx → EReal) (ix2 (0 : Fin 1) e) = (m ((c : Thread nD τ).loc main_arg5) : S1024.Idx → EReal) (ix1 e)
    rw [Tile.bias2_eq]
    exact shapeCast_a_1a_apply _ shapeCasts_S1024_S1x1024 _ _

/-! ## The run, read -/

/-- Every weakly fair execution of the kernel program ends with its result at the specification of the arguments
    and the arguments unchanged. -/
theorem run : θ_run defs (onTc (τ := τ) (main (F := Ideal))) ⟨m, fun _ => 0, ρ⟩ fun r => ∀ c : Dev nD,
      r.2.mem ((c.tc : Thread nD τ).loc main_v6)
        = Cert.Ffn.ffn (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(((h c).2 main_v6 (Pipeline.mem_restRefs_of main_v6 (by decide) (by decide))).trans
        ((tail_eq m c).trans (funext fun i => result_at m c i))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Whole

end
-- ==== Proof.RefValue.lean ====
/-
  The reference, entry by entry.

  The reference keeps the tokens on two axes (batch, position). It slices the first eight channels, adds the
  angles (broadcast over batch and position), takes cosines, contracts the eight features against the second axis
  of the first weight matrix, adds the first bias (broadcast), clips at zero, contracts the 4096 hidden units
  against the second axis of the second weight matrix and adds the second bias (broadcast). Read at (b, s, e),
  operation by operation, every broadcast and the slice are re-indexings, the two contractions are finite sums,
  and what is left is `Cert.Ffn.entry` of token (b, s): the reference's result IS `Cert.Ffn.ffn` of its arguments.
-/
import proofs.«138156_j65481071405846_2_alg».proof.Proof.Gen.ReferenceIdeal.Read
import proofs.«138156_j65481071405846_2_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The reference's last stage at (b, s, e) is the specification's entry there. -/
theorem ref_at (x0 : (⟨S8x2048x1024, .f32⟩ : BufTy).Contents (Elt Ideal)) (x1 : (⟨S8, .f32⟩ : BufTy).Contents (Elt Ideal)) (x2 : (⟨S4096x8, .f32⟩ : BufTy).Contents (Elt Ideal)) (x3 : (⟨S4096, .f32⟩ : BufTy).Contents (Elt Ideal)) (x4 : (⟨S1024x4096, .f32⟩ : BufTy).Contents (Elt Ideal)) (x5 : (⟨S1024, .f32⟩ : BufTy).Contents (Elt Ideal)) (i : S8x2048x1024.Idx) :
    val_main_v13 (F := Ideal) x0 x1 x2 x3 x4 x5 i = Cert.Ffn.ffn x0 x1 x2 x3 x4 x5 i := by
  rw [val_main_v13_apply, val_main_v10_apply, val_main_v12_apply, val_main_v11_apply]
  unfold Cert.Ffn.ffn Cert.Ffn.entry
  have e5 : idx_main_v11 (idx_main_v12 i) = ix1 (i 2) := funext fun a => Fin.ext (by match a with | ⟨0, _⟩ => rfl)
  rw [e5]
  refine congrArg (· + x5 (ix1 (i 2))) (Finset.sum_congr rfl fun f _ => ?_)
  rw [val_main_v9_apply, val_main_v8_apply, val_main_v5_apply, val_main_v7_apply, val_main_v6_apply,
    val_main_call0_v0_apply, val_main_call0_cst_apply]
  have e4 : ridx_main_v10 i f = ix2 (i 2) f := funext fun a => Fin.ext (by match a with | ⟨0, _⟩ => rfl | ⟨1, _⟩ => rfl)
  have e3 : idx_main_v6 (idx_main_v7 (lidx_main_v10 i f)) = ix1 f := funext fun a => Fin.ext (by match a with | ⟨0, _⟩ => rfl)
  rw [e4, e3]
  show max (_ + x3 (ix1 f)) (Ideal.ofBits .f32 0x00000000#32) * _ = _
  rw [Ideal.ofBits_zero_f32]
  refine congrArg (fun z => max (z + x3 (ix1 f)) 0 * x4 (ix2 (i 2) f)) (Finset.sum_congr rfl fun j _ => ?_)
  rw [val_main_v4_apply, val_main_v3_apply, val_main_v0_apply, val_main_v2_apply, val_main_v1_apply]
  have e0 : idx_main_v0 (lidx_main_v5 (lidx_main_v10 i f) j) = ix3 (i 0) (i 1) (Cert.Ffn.col j) :=
    funext fun a => Fin.ext (by match a with | ⟨0, _⟩ => rfl | ⟨1, _⟩ => rfl | ⟨2, _⟩ => rfl)
  have e1 : idx_main_v1 (idx_main_v2 (lidx_main_v5 (lidx_main_v10 i f) j)) = ix1 j :=
    funext fun a => Fin.ext (by match a with | ⟨0, _⟩ => rfl)
  have e2 : ridx_main_v5 (lidx_main_v10 i f) j = ix2 f j :=
    funext fun a => Fin.ext (by match a with | ⟨0, _⟩ => rfl | ⟨1, _⟩ => rfl)
  rw [e0, e1, e2]
  rfl

/-- So the reference's result is the specification of its arguments. -/
theorem ref_eq (x0 : (⟨S8x2048x1024, .f32⟩ : BufTy).Contents (Elt Ideal)) (x1 : (⟨S8, .f32⟩ : BufTy).Contents (Elt Ideal)) (x2 : (⟨S4096x8, .f32⟩ : BufTy).Contents (Elt Ideal)) (x3 : (⟨S4096, .f32⟩ : BufTy).Contents (Elt Ideal)) (x4 : (⟨S1024x4096, .f32⟩ : BufTy).Contents (Elt Ideal)) (x5 : (⟨S1024, .f32⟩ : BufTy).Contents (Elt Ideal)) :
    val_main_v13 (F := Ideal) x0 x1 x2 x3 x4 x5 = Cert.Ffn.ffn x0 x1 x2 x3 x4 x5 :=
  funext fun i => ref_at x0 x1 x2 x3 x4 x5 i

end Cert.ReferenceIdeal.RefValue

end
-- ==== Proof.lean ====
/-
  The kernel against its reference: a two-layer readout network applied to every token.

      out(b, s, e) = ( Σ_f  max( Σ_j cos(x(b, s, j) + θ(j)) · w1(f, j) + b1(f), 0 ) · w2(e, f) ) + b2(e),   j < 8, f < 4096.

  The kernel flattens the tokens to 16384 rows, runs sixteen tiles of 1024 rows through one body (cosines, a matrix
  product with the transposed first weights, bias, clip at zero, a matrix product with the transposed second weights,
  bias) and reshapes the rows back to batch × position. The reference does the same with the two token axes kept and
  `dot_general` for the products. On the extended reals the narrowing of the hidden units and of the second weights to
  sixteen bits is the identity, a matrix product into a zero accumulator is the plain finite sum, and both programs
  write the same summands in the same order — so they agree at every input, and finiteness of the inputs is not used.

  Proof/Spec.lean states the function; Proof/Body.lean reads the kernel body's stored value at an entry of a tile;
  Proof/Tile.lean shows that what a grid point writes back is a block of rows of one function on the whole result
  matrix; Proof/Whole.lean covers the matrix by the tiles, follows the reshape after the region and reads the
  operands back to the arguments; Proof/RefValue.lean reads the reference entry by entry. Here the five claims are
  assembled: the three programs run and leave their arguments alone, nothing was rewritten between the kernel and
  its idealization, and the two idealized programs end with the same result.
-/
import proofs.«138156_j65481071405846_2_alg».proof.Defs
import proofs.«138156_j65481071405846_2_alg».proof.Proof.Gen.Kernel
import proofs.«138156_j65481071405846_2_alg».proof.Proof.Gen.Kernel.Skeleton
import proofs.«138156_j65481071405846_2_alg».proof.Proof.Gen.Kernel.Launch
import proofs.«138156_j65481071405846_2_alg».proof.Proof.Gen.Kernel.Points
import proofs.«138156_j65481071405846_2_alg».proof.Proof.Gen.Kernel.Frame
import proofs.«138156_j65481071405846_2_alg».proof.Proof.Gen.KernelIdeal
import proofs.«138156_j65481071405846_2_alg».proof.Proof.Gen.KernelIdeal.Skeleton
import proofs.«138156_j65481071405846_2_alg».proof.Proof.Gen.KernelIdeal.Launch
import proofs.«138156_j65481071405846_2_alg».proof.Proof.Gen.KernelIdeal.Points
import proofs.«138156_j65481071405846_2_alg».proof.Proof.Gen.KernelIdeal.Frame
import proofs.«138156_j65481071405846_2_alg».proof.Proof.Gen.ReferenceIdeal
import proofs.«138156_j65481071405846_2_alg».proof.Proof.Gen.ReferenceIdeal.Run
import proofs.«138156_j65481071405846_2_alg».proof.Proof.Gen.ReferenceIdeal.Read
import proofs.«138156_j65481071405846_2_alg».proof.Proof.Gen.Pre_finite_inputs
import proofs.«138156_j65481071405846_2_alg».proof.Proof.Whole
import proofs.«138156_j65481071405846_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was idealized. -/
theorem preserves : Cert.preserves_Kernel_KernelIdeal := trivial

/-- Both idealized programs end with the specification of their (agreeing) arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v13_eq, Cert.ReferenceIdeal.RefValue.ref_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
